-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8 : Shape := ⟨1, ![8]⟩
abbrev S65536x2048 : Shape := ⟨2, ![65536, 2048]⟩
abbrev S65536x1 : Shape := ⟨2, ![65536, 1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S65536x1 : S_.BroadcastsInDim S65536x1 (![] : Fin 0 → Fin S65536x1.rank)
  reducesTo_S65536x1_S_d0_1 : S65536x1.ReducesTo [0, 1] S_

variable [Facts]

def fn {F : FTy → Type} [FloatOps F] (main_arg0 : FVec F S8192x2048 .f32) (main_arg1 : IVec S8 32) (main_arg2 : FVec F S65536x2048 .f32) (main_arg3 : FVec F S65536x1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S65536x2048 .f32 := Host.absf main_arg2
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_v9 : FVec F S65536x1 .f32 := Host.absf main_arg3
  let main_cst_2 : FVec F S_ .f32 := constant S_ .f32 0x7F800000#32
  let main_v10 : FVec F S65536x1 .f32 := broadcastInDim S65536x1 ![] bcast_S_S65536x1 main_cst_2
  let main_v11 : IVec S65536x1 1 := cmpf .olt main_v9 main_v10
  let main_c_3 : IVec S_ 1 := constantI S_ 1 1#1
  let main_v12 : IVec S_ 1 := (fun x v => Host.reduce IntOp.andi x v reducesTo_S65536x1_S_d0_1 h_S_) main_v11 main_c_3
  let main_v13 : IVec S_ 1 := andi main_v8 main_v12
  main_v13
-- ==== Kernel.lean ====
abbrev S8192x2048 : Shape := ⟨2, ![8192, 2048]⟩
abbrev S8 : Shape := ⟨1, ![8]⟩
abbrev S65536x2048 : Shape := ⟨2, ![65536, 2048]⟩
abbrev S65536x1 : Shape := ⟨2, ![65536, 1]⟩
abbrev S8192x8192 : Shape := ⟨2, ![8192, 8192]⟩
abbrev S1024x2048 : Shape := ⟨2, ![1024, 2048]⟩
abbrev S512x2048 : Shape := ⟨2, ![512, 2048]⟩
abbrev S512x1 : Shape := ⟨2, ![512, 1]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S65536x2048, .f32⟩
  | .hbm, ⟨3, _⟩ => ⟨S65536x1, .f32⟩
  | .hbm, ⟨4, _⟩ => ⟨S8192x2048, .bf16⟩
  | .hbm, ⟨5, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1024x512, .f32⟩
  | .local _ .vmem, ⟨7, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  broadcasts_S512x1_S512x2048 : S512x1.Broadcasts S512x2048
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S65536x2048.size a
  hwx0_1 : ∀ i : grid0.Coords, EltTy.bits .f32 = 32 ∨ (Rect.block (s := S65536x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S65536x1.size a
  hwx0_2 : ∀ i : grid0.Coords, EltTy.bits .f32 = 32 ∨ (Rect.block (s := S65536x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x8192.size a
  hwx0_3 : ∀ i : grid0.Coords, EltTy.bits .f32 = 32 ∨ (Rect.block (s := S8192x8192) S1024x512.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8 : Shape := ⟨1, ![8]⟩
abbrev S65536x2048 : Shape := ⟨2, ![65536, 2048]⟩
abbrev S65536x1 : Shape := ⟨2, ![65536, 1]⟩
abbrev S8x8192x2048 : Shape := ⟨3, ![8, 8192, 2048]⟩
abbrev S8x1024x2048 : Shape := ⟨3, ![8, 1024, 2048]⟩
abbrev S8x1024x8192 : Shape := ⟨3, ![8, 1024, 8192]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S65536x2048, .f32⟩
  | .hbm, ⟨3, _⟩ => ⟨S65536x1, .f32⟩
  | .hbm, ⟨4, _⟩ => ⟨S65536x2048, .f32⟩
  | .hbm, ⟨5, _⟩ => ⟨S65536x2048, .f32⟩
  | .hbm, ⟨6, _⟩ => ⟨S8x8192x2048, .f32⟩
  | .hbm, ⟨7, _⟩ => ⟨S8x1024x2048, .f32⟩
  | .hbm, ⟨8, _⟩ => ⟨S8x1024x8192, .f32⟩
  | .hbm, ⟨9, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S65536x1_S65536x2048_0_1 : S65536x1.BroadcastsInDim S65536x2048 (![0, 1] : Fin 2 → Fin S65536x2048.rank)
  shapeCasts_S65536x2048_S8x8192x2048 : S65536x2048.ShapeCasts S8x8192x2048
  shapeCasts_S8192x2048_S8x1024x2048 : S8192x2048.ShapeCasts S8x1024x2048
  shapeCasts_S8x1024x8192_S8192x8192 : S8x1024x8192.ShapeCasts S8192x8192
  dot_S8x1024x2048_S8x8192x2048_S8x1024x8192_2_2_1_1_0_0_wf : DotDims.WF S8x1024x2048 S8x8192x2048 S8x1024x8192 [2] [2] [1] [1] [0] [0]

variable [Facts₀]

def dot_S8x1024x2048_S8x8192x2048_S8x1024x8192_2_2_1_1_0_0 : DotDims S8x1024x2048 S8x8192x2048 S8x1024x8192 where
  lhsContracting := [2]
  rhsContracting := [2]
  lhsNonContracting := [1]
  rhsNonContracting := [1]
  lhsBatch := [0]
  rhsBatch := [0]
  wf := dot_S8x1024x2048_S8x8192x2048_S8x1024x8192_2_2_1_1_0_0_wf

class Facts : Prop extends Facts₀ where

variable [Facts]
-- ==== Proof.GroupedProduct.lean ====
/-
  The grouped product. The 8192 token rows are split into 8 consecutive groups of 1024, one per expert; expert e owns
  the 8192 consecutive weight rows e·8192 … e·8192 + 8191, each scaled by its own factor. Entry (r, j) of the result is
  the product of token row r with the scaled weight row that r's expert keeps for output channel j:

      out(r, j) = Σ_k x(r, k) · (w(ρ, k) · s(ρ, 0)),   ρ = (r / 1024)·8192 + j.

  Stated here on the extended reals over the literal extents, with no program in sight; both programs are shown to
  compute it, entry by entry.
-/
import Idealize.ShloMosaic.PureOps.Ideal
import Idealize.ShloMosaic.Lib.ValueIdx

noncomputable section

open scoped BigOperators

namespace Cert.Grouped

open Idealize.ShloMosaic Idealize.ShloMosaic.ValueIdx

/-- The weight row that token row `r`'s expert keeps for output channel `j`. -/
def wrow (r j : Fin 8192) : Fin 65536 :=
  ⟨r.val / 1024 * 8192 + j.val, by have := r.isLt; have := j.isLt; omega⟩

theorem wrow_val (r j : Fin 8192) : (wrow r j).val = r.val / 1024 * 8192 + j.val := rfl

/-- Entry (r, j): token row `r` against the scaled weight row `wrow r j`. -/
def entry (x : FVec Ideal ⟨2, ![8192, 2048]⟩ .f32) (w : FVec Ideal ⟨2, ![65536, 2048]⟩ .f32)
    (s : FVec Ideal ⟨2, ![65536, 1]⟩ .f32) (r j : Fin 8192) : EReal :=
  ∑ k : Fin 2048, x (ix2 r k) * (w (ix2 (wrow r j) k) * s (ix2 (wrow r j) (0 : Fin 1)))

/-- The whole [8192, 8192] result. -/
def product (x : FVec Ideal ⟨2, ![8192, 2048]⟩ .f32) (w : FVec Ideal ⟨2, ![65536, 2048]⟩ .f32)
    (s : FVec Ideal ⟨2, ![65536, 1]⟩ .f32) : FVec Ideal ⟨2, ![8192, 8192]⟩ .f32 :=
  fun i => entry x w s (i 0) (i 1)

theorem product_apply (x : FVec Ideal ⟨2, ![8192, 2048]⟩ .f32) (w : FVec Ideal ⟨2, ![65536, 2048]⟩ .f32)
    (s : FVec Ideal ⟨2, ![65536, 1]⟩ .f32) (r j : Fin 8192) : product x w s (ix2 r j) = entry x w s r j := rfl

end Cert.Grouped

end
-- ==== Proof.ReferenceProduct.lean ====
/-
  The reference computes the grouped product. It scales every weight row, views the scaled weights as [8, 8192, 2048]
  and the tokens as [8, 1024, 2048], contracts the last axis of both expert by expert, and lays the [8, 1024, 8192]
  result out as [8192, 8192]. Reading the stages at an entry (r, j): the last reshape sends (r, j) to expert r / 1024,
  token r % 1024, channel j; the contraction pairs token (r / 1024, r % 1024, k) with weight (r / 1024, j, k); and the
  two first reshapes send those back to token row r and weight row (r / 1024)·8192 + j. That is the grouped product's entry.
-/
import proofs.«167254_j79156247265584_2_alg».proof.Proof.Gen.ReferenceIdeal.Read
import proofs.«167254_j79156247265584_2_alg».proof.Proof.GroupedProduct

noncomputable section

open scoped BigOperators

namespace Cert.ReferenceIdeal.Hand

open Cert.ReferenceIdeal Cert.ReferenceIdeal.Read Idealize.ShloMosaic Idealize.ShloMosaic.ValueIdx Cert.Grouped

/-- The token the contraction reads for entry (r, j) at position k is x(r, k). -/
theorem token_index (r j : Fin 8192) (k : Fin 2048) :
    idx_main_v3 (lidx_main_v4 (idx_main_v5 (ix2 r j)) k) = ix2 r k := by
  have hr := r.isLt; have hj := j.isLt; have hk := k.isLt
  funext a
  refine Fin.ext ?_
  match a with
  | ⟨0, _⟩ =>
    show (((r.val * 8192 + j.val) / 8388608 * 1024 + (r.val * 8192 + j.val) / 8192 % 1024) * 2048 + k.val) / 2048 = r.val
    omega
  | ⟨1, _⟩ =>
    show (((r.val * 8192 + j.val) / 8388608 * 1024 + (r.val * 8192 + j.val) / 8192 % 1024) * 2048 + k.val) % 2048 = k.val
    omega

/-- The weight it reads is w(wrow r j, k). -/
theorem weight_index (r j : Fin 8192) (k : Fin 2048) :
    idx_main_v2 (ridx_main_v4 (idx_main_v5 (ix2 r j)) k) = ix2 (wrow r j) k := by
  have hr := r.isLt; have hj := j.isLt; have hk := k.isLt
  funext a
  refine Fin.ext ?_
  match a with
  | ⟨0, _⟩ =>
    show (((r.val * 8192 + j.val) / 8388608 * 8192 + (r.val * 8192 + j.val) % 8192) * 2048 + k.val) / 2048 = r.val / 1024 * 8192 + j.val
    omega
  | ⟨1, _⟩ =>
    show (((r.val * 8192 + j.val) / 8388608 * 8192 + (r.val * 8192 + j.val) % 8192) * 2048 + k.val) % 2048 = k.val
    omega

/-- The scale broadcast along a weight row is the row's one factor. -/
theorem scale_index (ρ : Fin 65536) (k : Fin 2048) : idx_main_v0 (ix2 ρ k) = ix2 ρ (0 : Fin 1) := by
  funext a
  refine Fin.ext ?_
  match a with
  | ⟨0, _⟩ => rfl
  | ⟨1, _⟩ => rfl

/-- The reference's result is the grouped product of its arguments. -/
theorem reference_eq (x0 : (⟨S8192x2048, .f32⟩ : BufTy).Contents (Elt Ideal)) (x2 : (⟨S65536x2048, .f32⟩ : BufTy).Contents (Elt Ideal))
    (x3 : (⟨S65536x1, .f32⟩ : BufTy).Contents (Elt Ideal)) :
    val_main_v5 (F := Ideal) x0 x2 x3 = product x0 x2 x3 := by
  funext i
  obtain ⟨r, j, rfl⟩ : ∃ (r j : Fin 8192), i = ix2 r j := ⟨i 0, i 1, eq_ix2 i⟩
  rw [val_main_v5_apply, val_main_v4_apply, product_apply]
  unfold entry
  refine Finset.sum_congr rfl fun k _ => ?_
  rw [val_main_v3_apply, val_main_v2_apply, val_main_v1_apply, val_main_v0_apply, token_index, weight_index, scale_index]
  rfl

end Cert.ReferenceIdeal.Hand

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.BodyEntry.lean ====
/-
  One grid step's arithmetic at an entry. The body multiplies each of its 512 weight rows by the row's factor and then
  takes the product of its 1024 token rows with those scaled rows, both contracted along their 2048 columns, into a zero
  accumulator. On the extended reals the changes of float format are the identity, so entry (p, n) of the stored block is

      Σ_k X(p, k) · (W(n, k) · S(n, 0)).
-/
import proofs.«167254_j79156247265584_2_alg».proof.Proof.Gen.KernelIdeal.Skeleton
import proofs.«167254_j79156247265584_2_alg».proof.Proof.LibMatmulRows
import proofs.«167254_j79156247265584_2_alg».proof.Proof.LibKeepdims
import proofs.«167254_j79156247265584_2_alg».proof.Proof.GroupedProduct
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.Grouped

/-- Entry (p, n) of what the body stores, from the three blocks it loads. -/
theorem payload_entry (X : Vec Ideal S1024x2048 .bf16) (W : Vec Ideal S512x2048 .f32) (S : Vec Ideal S512x1 .f32)
    (p : Fin 1024) (n : Fin 512) :
    k0_pay1 (F := Ideal) X W S (ix2 p n) = ∑ k : Fin 2048, X (ix2 p k) * (W (ix2 n k) * S (ix2 n (0 : Fin 1))) := by
  unfold k0_pay1
  refine (Cert.LibMatmulRows.matmul_zero_apply (M := 1024) (K := 2048) (N := 512)
    dot_S1024x2048_S512x2048_S1024x512_1_1_0_0_n_n_wf none _ _ p n).trans ?_
  refine Finset.sum_congr rfl fun k _ => ?_
  refine congrArg₂ (· * ·) (congrFun (shapeCast_self X shapeCasts_S1024x2048_S1024x2048) (ix2 p k)) ?_
  refine congrArg (W (ix2 n k) * ·) ?_
  exact Cert.Lib.Keepdims.bcastCol_apply (a := 512) (b := 2048) _ broadcasts_S512x1_S512x2048 n k

/-- A step whose token block holds the rows of token row `i 0`'s group and whose weight and scale blocks hold the
    rows around `wrow (i 0) (i 1)` stores, at the entry `y` that sits at `i` in the array, the grouped product's entry `i`:
    `hX`, `hW`, `hS` say which array rows the block rows `y 0` (tokens) and `y 1` (weights, scales) are. -/
theorem block_entry (X : Vec Ideal S1024x2048 .bf16) (W : Vec Ideal S512x2048 .f32) (S : Vec Ideal S512x1 .f32)
    (x : FVec Ideal ⟨2, ![8192, 2048]⟩ .f32) (w : FVec Ideal ⟨2, ![65536, 2048]⟩ .f32) (s : FVec Ideal ⟨2, ![65536, 1]⟩ .f32)
    (y : S1024x512.Idx) (i : S8192x8192.Idx)
    (hX : ∀ k : Fin 2048, X (ix2 (y 0) k) = x (ix2 (i 0) k))
    (hW : ∀ k : Fin 2048, W (ix2 (y 1) k) = w (ix2 (wrow (i 0) (i 1)) k))
    (hS : S (ix2 (y 1) (0 : Fin 1)) = s (ix2 (wrow (i 0) (i 1)) (0 : Fin 1))) :
    k0_pay1 (F := Ideal) X W S y = product x w s i := by
  refine (congrArg (k0_pay1 (F := Ideal) X W S) (eq_ix2 y)).trans ?_
  refine (payload_entry X W S (y 0) (y 1)).trans ?_
  show _ = entry x w s (i 0) (i 1)
  unfold entry
  refine Finset.sum_congr rfl fun k _ => ?_
  rw [hX k, hW k, hS]

end Cert.KernelIdeal.Hand

end
-- ==== Proof.KernelArray.lean ====
/-
  From the grid's blocks to the whole result array. The grid is 8 × 16: step (e, o) reads token rows e·1024 … e·1024 + 1023
  (all 2048 columns), weight and scale rows (16e + o)·512 … (16e + o)·512 + 511, and writes the [1024, 512] block of the
  result at rows e·1024 …, columns o·512 …. Row n of that weight block is array row (16e + o)·512 + n = e·8192 + (o·512 + n),
  the row expert e keeps for output channel o·512 + n; so the block written is the grouped product read through the block.
  The 128 blocks tile the [8192, 8192] array (entry (r, j) lies in the block of step (r / 1024, j / 512)), so the array
  after the run is the grouped product of the launch contents. The tokens reach the region through a change of float
  format made before it, which is the identity on the extended reals.
-/
import proofs.«167254_j79156247265584_2_alg».proof.Proof.Gen.KernelIdeal.Value
import proofs.«167254_j79156247265584_2_alg».proof.Proof.BodyEntry
import proofs.«167254_j79156247265584_2_alg».proof.Proof.GroupedProduct
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.Grouped

variable (m : (ℓ : Loc nD τ sig) → Buf (Elt Ideal) ℓ) (ρ : Dev nD → PrngReg)

theorem hz : (![0, 0] : Fin 2 → Nat) = fun _ => 0 := funext fun a => by fin_cases a <;> rfl

/-- The result array the run ends with: the grouped product of the launch contents. -/
abbrev result (c : Dev nD) : Buf (Elt Ideal) ((c : Thread nD τ).loc main_v1) :=
  product (m ((c : Thread nD τ).loc main_arg0)) (m ((c : Thread nD τ).loc main_arg2)) (m ((c : Thread nD τ).loc main_arg3))

/-- The region finds the tokens after their change of float format. -/
theorem tokens_at_entry (c : Dev nD) :
    (V m c main_v0 : FVec Ideal S8192x2048 .bf16)
      = truncf (F := Ideal) .bf16 (m ((c : Thread nD τ).loc main_arg0) : FVec Ideal S8192x2048 .f32) bitsLt_bf16_f32 := by
  dsimp only [V, hostOps0]; after_results

/-- The printed index maps over the 128 steps: the token block moves with the result block's row index, the weight and
    scale blocks sit at 16 × (row index) + (column index), and the result's block indices range over 8 × 16. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) * 16 + win0_3.index t (1 : Fin 2) ∧ win0_1.index t (1 : Fin 2) = 0
    ∧ win0_2.index t (0 : Fin 2) = win0_3.index t (0 : Fin 2) * 16 + win0_3.index t (1 : Fin 2) ∧ win0_2.index t (1 : Fin 2) = 0
    ∧ win0_3.index t (0 : Fin 2) ≤ 7 ∧ win0_3.index t (1 : Fin 2) ≤ 15 :=
  (by decide +kernel : ∀ t : Fin grid0.N, _)

/-- Every one of the 8 × 16 result blocks is some step's. -/
theorem idx_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-- The token block at step `t`, entry `y`, is the launch tokens at the array index `i` the block puts it at. -/
theorem tokens_block (c : Dev nD) (t : Fin cfg0.N) (y : S1024x2048.Idx) (i : S8192x2048.Idx)
    (h0 : (i 0).val = win0_0.index t (0 : Fin 2) * 1024 + (y 0).val)
    (h1 : (i 1).val = win0_0.index t (1 : Fin 2) * 2048 + (y 1).val) :
    (iblk m c 0 t : Vec Ideal S1024x2048 .bf16) y = m ((c : Thread nD τ).loc main_arg0) i := by
  unfold iblk
  rw [View.read_apply]
  show V m c main_v0 _ = _
  rw [tokens_at_entry]
  show m ((c : Thread nD τ).loc main_arg0) _ = m ((c : Thread nD τ).loc main_arg0) i
  congr 1
  funext a
  apply Fin.ext
  match a with
  | ⟨0, _⟩ => show win0_0.index t (0 : Fin 2) * 1024 + 1 * (y 0).val = (i 0).val; omega
  | ⟨1, _⟩ => show win0_0.index t (1 : Fin 2) * 2048 + 1 * (y 1).val = (i 1).val; omega

/-- The weight block at step `t`, likewise. -/
theorem weights_block (c : Dev nD) (t : Fin cfg0.N) (y : S512x2048.Idx) (i : S65536x2048.Idx)
    (h0 : (i 0).val = win0_1.index t (0 : Fin 2) * 512 + (y 0).val)
    (h1 : (i 1).val = win0_1.index t (1 : Fin 2) * 2048 + (y 1).val) :
    (iblk m c 1 t : Vec Ideal S512x2048 .f32) y = m ((c : Thread nD τ).loc main_arg2) i := by
  unfold iblk
  rw [View.read_apply]
  show V m c main_arg2 _ = _
  rw [V_main_arg2]
  congr 1
  funext a
  apply Fin.ext
  match a with
  | ⟨0, _⟩ => show win0_1.index t (0 : Fin 2) * 512 + 1 * (y 0).val = (i 0).val; omega
  | ⟨1, _⟩ => show win0_1.index t (1 : Fin 2) * 2048 + 1 * (y 1).val = (i 1).val; omega

/-- The scale block at step `t`, likewise. -/
theorem scales_block (c : Dev nD) (t : Fin cfg0.N) (y : S512x1.Idx) (i : S65536x1.Idx)
    (h0 : (i 0).val = win0_2.index t (0 : Fin 2) * 512 + (y 0).val)
    (h1 : (i 1).val = win0_2.index t (1 : Fin 2) * 1 + (y 1).val) :
    (iblk m c 2 t : Vec Ideal S512x1 .f32) y = m ((c : Thread nD τ).loc main_arg3) i := by
  unfold iblk
  rw [View.read_apply]
  show V m c main_arg3 _ = _
  rw [V_main_arg3]
  congr 1
  funext a
  apply Fin.ext
  match a with
  | ⟨0, _⟩ => show win0_2.index t (0 : Fin 2) * 512 + 1 * (y 0).val = (i 0).val; omega
  | ⟨1, _⟩ => show win0_2.index t (1 : Fin 2) * 1 + 1 * (y 1).val = (i 1).val; omega

/-- What step `t` writes back is block `t` of the grouped product. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S1024x2048) hz, View.ld_unit_zero (S := S512x2048) hz, View.ld_unit_zero (S := S512x1) hz]
  obtain ⟨e00, e01, e10, e11, e20, e21, b0, b1⟩ := idx_facts t
  funext y
  have hy0 : (y 0).val < 1024 := (y 0).isLt
  have hy1 : (y 1).val < 512 := (y 1).isLt
  show k0_pay1 (iblk m c 0 t) (iblk m c 1 t) (iblk m c 2 t) y = result m c (((cfg0.win 3).blk t).view.emb y)
  refine block_entry (iblk m c 0 t) (iblk m c 1 t) (iblk m c 2 t)
    (m ((c : Thread nD τ).loc main_arg0)) (m ((c : Thread nD τ).loc main_arg2)) (m ((c : Thread nD τ).loc main_arg3))
    y (((cfg0.win 3).blk t).view.emb y) (fun k => ?_) (fun k => ?_) ?_
  · refine tokens_block m c t _ _ ?_ ?_
    · show win0_3.index t (0 : Fin 2) * 1024 + 1 * (y 0).val = win0_0.index t (0 : Fin 2) * 1024 + (y 0).val; omega
    · show k.val = win0_0.index t (1 : Fin 2) * 2048 + k.val; omega
  · refine weights_block m c t _ _ ?_ ?_
    · show (win0_3.index t (0 : Fin 2) * 1024 + 1 * (y 0).val) / 1024 * 8192 + (win0_3.index t (1 : Fin 2) * 512 + 1 * (y 1).val)
        = win0_1.index t (0 : Fin 2) * 512 + (y 1).val
      omega
    · show k.val = win0_1.index t (1 : Fin 2) * 2048 + k.val; omega
  · refine scales_block m c t _ _ ?_ ?_
    · show (win0_3.index t (0 : Fin 2) * 1024 + 1 * (y 0).val) / 1024 * 8192 + (win0_3.index t (1 : Fin 2) * 512 + 1 * (y 1).val)
        = win0_2.index t (0 : Fin 2) * 512 + (y 1).val
      omega
    · show 0 = win0_2.index t (1 : Fin 2) * 1 + 0; omega

/-- An array index is in step `t`'s block iff each coordinate is in the block's range on its axis. -/
theorem mem_blk (t : Fin cfg0.N) (i : S8192x8192.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- The blocks cover the array: entry (r, j) lies in the block of the step with indices (r / 1024, j / 512). -/
theorem cover (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the run is the grouped product of the launch contents. -/
theorem final (c : Dev nD) : (dats m 0 c).arrAt 3 cfg0.N = result m c :=
  (dats m 0 c).arrAt_eq_of_cover 3 (result m c) (fun t _ => flushed_eq m c t) cover

/-- The run, read: the result array at the grouped product, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Hand

end
-- ==== Proof.lean ====
/-
  The grouped, scaled matrix product against its plain statement. Both programs compute, for token row r and output
  channel j,

      out(r, j) = Σ_k x(r, k) · (w(ρ, k) · s(ρ, 0)),   ρ = (r / 1024)·8192 + j

  (GroupedProduct.lean): the tiled program one [1024, 512] block per grid step, each block the product of one expert's
  tokens with 512 of its scaled weight rows (BodyEntry.lean, KernelArray.lean); the plain program by scaling all weight rows,
  viewing tokens and weights expert by expert and contracting them in one batched product (ReferenceProduct.lean). On the
  extended reals the two are the same sums term by term — no rearrangement, so no finiteness is used. The three runs
  (termination, no fault, arguments unchanged) are the generated frames and the reference's generated run; the idealized
  tiled program is the printed one read on the extended reals, with nothing rewritten, so that conjunct is `True`.
-/
import proofs.«167254_j79156247265584_2_alg».proof.Defs
import proofs.«167254_j79156247265584_2_alg».proof.Proof.Gen.Kernel
import proofs.«167254_j79156247265584_2_alg».proof.Proof.Gen.Kernel.Skeleton
import proofs.«167254_j79156247265584_2_alg».proof.Proof.Gen.Kernel.Launch
import proofs.«167254_j79156247265584_2_alg».proof.Proof.Gen.Kernel.Points
import proofs.«167254_j79156247265584_2_alg».proof.Proof.Gen.Kernel.Frame
import proofs.«167254_j79156247265584_2_alg».proof.Proof.Gen.KernelIdeal
import proofs.«167254_j79156247265584_2_alg».proof.Proof.Gen.KernelIdeal.Skeleton
import proofs.«167254_j79156247265584_2_alg».proof.Proof.Gen.KernelIdeal.Launch
import proofs.«167254_j79156247265584_2_alg».proof.Proof.Gen.KernelIdeal.Points
import proofs.«167254_j79156247265584_2_alg».proof.Proof.Gen.KernelIdeal.Frame
import proofs.«167254_j79156247265584_2_alg».proof.Proof.Gen.ReferenceIdeal
import proofs.«167254_j79156247265584_2_alg».proof.Proof.Gen.KernelIdeal.Value
import proofs.«167254_j79156247265584_2_alg».proof.Proof.Gen.ReferenceIdeal.Run
import proofs.«167254_j79156247265584_2_alg».proof.Proof.Gen.ReferenceIdeal.Read
import proofs.«167254_j79156247265584_2_alg».proof.Proof.Gen.Pre_finite_inputs
import proofs.«167254_j79156247265584_2_alg».proof.Proof.GroupedProduct
import proofs.«167254_j79156247265584_2_alg».proof.Proof.ReferenceProduct
import proofs.«167254_j79156247265584_2_alg».proof.Proof.KernelArray
import Idealize.ShloMosaic.Adequacy
import Idealize.ShloMosaic.Init

noncomputable section

namespace Cert.Proof

open Idealize.ShloMosaic Idealize.ShloMosaic.TcCoe Idealize.SL.Sem

/-- The word-level tiled program runs and leaves its arguments as they were. -/
theorem frame_kernel : Cert.frame_Kernel := fun m ρ _ => Cert.Kernel.Gen.frame m ρ

/-- So does the tiled program read on the extended reals. -/
theorem frame_kernelIdeal : Cert.frame_KernelIdeal := fun m ρ _ => Cert.KernelIdeal.Gen.frame m ρ

/-- And the plain program: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the tiled program's result array ends at the grouped product of its arguments
    (KernelArray.lean) and the plain program's at its stages' composition, which is the grouped product of the same
    arguments (ReferenceProduct.lean). -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Hand.reference_eq,
    (hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
